-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S16x128 : Shape := ⟨2, ![16, 128]⟩
abbrev S2048x256 : Shape := ⟨2, ![2048, 256]⟩
abbrev S8x128 : Shape := ⟨2, ![8, 128]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S8x128, .f32⟩
  | .local _ .vmem, ⟨5, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.CosineSpec.lean ====
/-
  The function both programs compute, stated once over the extended reals.

  For two arrays `x0, x1` of shape [8192, 256], row `i` contributes its cosine similarity
      sim i = (∑ₖ x0[i,k]·x1[i,k]) / (max (√∑ₖ x0[i,k]²) ε · max (√∑ₖ x1[i,k]²) ε),
  and the result is `-(∑ᵢ sim i) / 8192`. The 8192 rows are also read as four consecutive blocks of
  2048 rows, so the sum over rows is the sum of the four block sums (`sum_rows_blocks`).
-/
import Idealize.ShloMosaic.PureOps.Ideal
import Idealize.ShloMosaic.PureOps.Ideal.Laws
import Idealize.ShloMosaic.Lib.ValueIdx
import proofs.«125880_j12927851560994_2_alg».proof.Proof.LibUnitAxisSums

noncomputable section

open scoped BigOperators

namespace Cert.DiagCos

open Idealize.ShloMosaic Idealize.ShloMosaic.ValueIdx

/-- The clamp on each norm: the f32 nearest to 1e-8. -/
def eps : EReal := Ideal.ofBits .f32 0x322BCC77#32

/-- The divisor 8192. -/
def count : EReal := Ideal.ofBits .f32 0x46000000#32

/-- The cosine similarity of two rows of length 256, each norm clamped below by `eps`. -/
def rowSim (a b : Fin 256 → EReal) : EReal :=
  Ideal.div (∑ k, a k * b k) (max (Ideal.sqrt (∑ k, a k * a k)) eps * max (Ideal.sqrt (∑ k, b k * b k)) eps)

/-- Row `i` of an array with 256 columns. -/
def rowOf {n : Nat} (x : (⟨2, ![n, 256]⟩ : Shape).Idx → EReal) (i : Fin n) : Fin 256 → EReal := fun k => x (ix2 i k)

/-- The sum of the cosine similarities of corresponding rows of two arrays of `n` rows. -/
def simSum {n : Nat} (x0 x1 : (⟨2, ![n, 256]⟩ : Shape).Idx → EReal) : EReal :=
  ∑ i : Fin n, rowSim (rowOf x0 i) (rowOf x1 i)

/-- The loss: minus the mean over the 8192 rows of the cosine similarity of corresponding rows. -/
def loss (x0 x1 : (⟨2, ![8192, 256]⟩ : Shape).Idx → EReal) : EReal :=
  Ideal.div (-(simSum x0 x1)) count

/-- Row `r` of block `b` (four blocks of 2048 rows) is row `2048·b + r` of the array. -/
def blockRow (b : Fin 4) (r : Fin 2048) : Fin 8192 := ⟨2048 * b.val + r.val, by omega⟩

/-- Block `b` of an [8192, 256] array: its rows `2048·b … 2048·b + 2047`. -/
def blockOf (x : (⟨2, ![8192, 256]⟩ : Shape).Idx → EReal) (b : Fin 4) : (⟨2, ![2048, 256]⟩ : Shape).Idx → EReal :=
  fun j => x (ix2 (blockRow b (j 0)) (j 1))

/-- The sum over all rows is the sum over the four blocks of each block's sum. -/
theorem simSum_blocks (x0 x1 : (⟨2, ![8192, 256]⟩ : Shape).Idx → EReal) :
    simSum x0 x1 = simSum (blockOf x0 0) (blockOf x1 0) + simSum (blockOf x0 1) (blockOf x1 1)
      + simSum (blockOf x0 2) (blockOf x1 2) + simSum (blockOf x0 3) (blockOf x1 3) := by
  unfold simSum
  rw [sum_fin_blocks 4 2048 (fun i : Fin 8192 => rowSim (rowOf x0 i) (rowOf x1 i)), Fin.sum_univ_four]
  rfl

/-- The kernel's arrangement: each of two accumulators starts from zero and adds two block sums; the two are
    added. Over the extended reals this is the sum of the four block sums, whatever their values (addition there is
    commutative and associative with `0` neutral). -/
theorem two_accumulators (p0 p1 p2 p3 : EReal) :
    ((Ideal.ofBits .f32 0x00000000#32 + p0) + p1) + ((Ideal.ofBits .f32 0x00000000#32 + p2) + p3) = p0 + p1 + p2 + p3 := by
  rw [Ideal.ofBits_zero_f32, zero_add, zero_add, add_assoc (p0 + p1)]

end Cert.DiagCos

end
-- ==== Proof.RefValue.lean ====
/-
  The reference computes the loss of CosineSpec.

  The reference forms the whole [8192, 8192] matrix of pairwise similarities
      S[i,j] = (∑ₖ x0[i,k]·x1[j,k]) / (n0[i]·n1[j]),   n·[i] = max (√∑ₖ x·[i,k]²) ε,
  multiplies it entrywise by the identity matrix (the indicator of `i = j`, an integer comparison converted to
  0 or 1), sums each row, sums the row sums, negates and divides by 8192.
  Over the extended reals `s · 0 = 0` and `s · 1 = s` for EVERY `s`, so row `i`'s sum is its diagonal entry
  `S[i,i]`, which is the cosine similarity of row `i` of `x0` with row `i` of `x1`: no finiteness is used.
-/
import proofs.«125880_j12927851560994_2_alg».proof.Defs
import proofs.«125880_j12927851560994_2_alg».proof.Proof.Gen.ReferenceIdeal.Run
import proofs.«125880_j12927851560994_2_alg».proof.Proof.Gen.ReferenceIdeal.Read
import proofs.«125880_j12927851560994_2_alg».proof.Proof.CosineSpec

noncomputable section

open scoped BigOperators

namespace Cert.ReferenceIdeal.RefValue

open Idealize.ShloMosaic Idealize.ShloMosaic.ValueIdx Cert.ReferenceIdeal Cert.ReferenceIdeal.Read Cert.DiagCos

/-- Entry `(r, k)` of the identity matrix: 1 on the diagonal, 0 off it. The two coordinates are below 8192, so
    their 32-bit words are equal exactly when they are. -/
theorem identity_entry (r k : Fin 8192) :
    val_main_v18 (F := Ideal) (ix2 r k) = if r = k then (1 : EReal) else 0 := by
  have hr := r.isLt
  have hk := k.isLt
  rw [val_main_v18_apply, val_main_v17_apply, val_main_v16_apply, val_main_v13_apply, val_main_v14_apply,
    val_main_v15_apply, val_main_c_apply]
  show (((IntOp.cmpi .eq (IntOp.addi (BitVec.ofNat 32 r.val) 0#32) (BitVec.ofNat 32 k.val)).toNat : ℝ) : EReal) = _
  by_cases h : r = k
  · subst h
    rw [if_pos rfl]
    simp [IntOp.cmpi, IntOp.addi]
  · rw [if_neg h]
    have hne : ¬ (BitVec.ofNat 32 r.val = BitVec.ofNat 32 k.val) := by
      intro e
      apply h
      apply Fin.ext
      have := congrArg BitVec.toNat e
      simp only [BitVec.toNat_ofNat] at this
      omega
    simp [IntOp.cmpi, IntOp.addi, hne]

/-- The column index `k` of row `r` of the [8192, 8192] matrix. -/
theorem row_entry_idx (r k : Fin 8192) : idx_main_v20 (ix1 r) k = ix2 r k :=
  funext fun a => Fin.ext (by match a with | ⟨0, _⟩ => rfl | ⟨1, _⟩ => rfl)

/-- Column `k` of row `r` of `x0`, as the first norm's sum reaches it from the diagonal entry `(r, r)`. -/
theorem norm0_idx (r : Fin 8192) (k : Fin 256) :
    idx_main_call0_v1 (idx_main_v7 (idx_main_v9 (ix2 r r))) k = ix2 r k :=
  funext fun a => Fin.ext (by match a with | ⟨0, _⟩ => rfl | ⟨1, _⟩ => rfl)

/-- Column `k` of row `r` of `x1`, as the second norm's sum reaches it from the diagonal entry `(r, r)`. -/
theorem norm1_idx (r : Fin 8192) (k : Fin 256) :
    idx_main_call1_v1 (idx_main_v8 (idx_main_v10 (ix2 r r))) k = ix2 r k :=
  funext fun a => Fin.ext (by match a with | ⟨0, _⟩ => rfl | ⟨1, _⟩ => rfl)

/-- The two operand indices of the product's term `k` at the diagonal entry `(r, r)`. -/
theorem dot_lidx (r : Fin 8192) (k : Fin 256) : lidx_main_v6 (ix2 r r) k = ix2 r k :=
  funext fun a => Fin.ext (by match a with | ⟨0, _⟩ => rfl | ⟨1, _⟩ => rfl)
theorem dot_ridx (r : Fin 8192) (k : Fin 256) : ridx_main_v6 (ix2 r r) k = ix2 r k :=
  funext fun a => Fin.ext (by match a with | ⟨0, _⟩ => rfl | ⟨1, _⟩ => rfl)

/-- The diagonal entry `(r, r)` of the similarity matrix is the cosine similarity of the two rows `r`. -/
theorem diagonal_entry (x0 x1 : (⟨S8192x256, .f32⟩ : BufTy).Contents (Elt Ideal)) (r : Fin 8192) :
    val_main_v12 (F := Ideal) x0 x1 (ix2 r r) = rowSim (rowOf x0 r) (rowOf x1 r) := by
  rw [val_main_v12_apply, val_main_v6_apply, val_main_v11_apply, val_main_v9_apply, val_main_v10_apply,
    val_main_v7_apply, val_main_v8_apply, val_main_v2_apply, val_main_v5_apply, val_main_v0_apply, val_main_v3_apply,
    val_main_v1_apply, val_main_v4_apply, val_main_cst_apply, val_main_cst_0_apply, val_main_call0_v1_apply,
    val_main_call1_v1_apply, val_main_call0_cst_apply, val_main_call1_cst_apply]
  simp only [val_main_call0_v0_apply, val_main_call1_v0_apply, norm0_idx, norm1_idx, dot_lidx, dot_ridx,
    Ideal.hostDivf_def, Ideal.mulf_def, Ideal.maximumf_def, Ideal.hostUnary_sqrt_def, Ideal.ofBits_def,
    Ideal.ofBits_zero_f32, zero_add]
  rfl

/-- Row `r` of the masked matrix sums to its diagonal entry: every other term is a product with 0. -/
theorem row_sum (x0 x1 : (⟨S8192x256, .f32⟩ : BufTy).Contents (Elt Ideal)) (r : Fin 8192) :
    val_main_v20 (F := Ideal) x0 x1 (ix1 r) = rowSim (rowOf x0 r) (rowOf x1 r) := by
  rw [val_main_v20_apply, val_main_cst_1_apply]
  have hterm : ∀ k : Fin 8192, val_main_v19 (F := Ideal) x0 x1 (idx_main_v20 (ix1 r) k)
      = if r = k then val_main_v12 (F := Ideal) x0 x1 (ix2 r k) else 0 := by
    intro k
    rw [row_entry_idx, val_main_v19_apply, identity_entry, Ideal.mulf_def]
    by_cases h : r = k
    · rw [if_pos h, if_pos h, mul_one]
    · rw [if_neg h, if_neg h, mul_zero]
  rw [Finset.sum_congr rfl (fun k _ => hterm k), Finset.sum_ite_eq Finset.univ r, if_pos (Finset.mem_univ r),
    diagonal_entry, Ideal.ofBits_def, Ideal.ofBits_zero_f32, zero_add]

/-- The reference's result is the loss. -/
theorem result_eq (x0 x1 : (⟨S8192x256, .f32⟩ : BufTy).Contents (Elt Ideal)) :
    val_main_v23 (F := Ideal) x0 x1 = fun _ => loss x0 x1 := by
  funext i
  rw [val_main_v23_apply, val_main_v22_apply, val_main_v21_apply, val_main_cst_3_apply, val_main_cst_2_apply,
    sum_idx1, Finset.sum_congr rfl (fun r _ => row_sum x0 x1 r)]
  simp only [Ideal.hostDivf_def, Ideal.hostNegf_def, Ideal.negf_def, Ideal.ofBits_def, Ideal.ofBits_zero_f32, zero_add]
  rfl

end Cert.ReferenceIdeal.RefValue

end
-- ==== Proof.KernelPayload.lean ====
/-
  What the kernel's body stores at entry (0, 0) of its [8, 128] output block, read over the extended reals.

  The body loads a [2048, 256] block of each input, forms for every row the three row sums
  `∑ₖ a·b`, `∑ₖ a·a`, `∑ₖ b·b` (kept as columns [2048, 1]), divides the first by the product of the two clamped
  square roots, sums the 2048 quotients into one number, and adds that number into the output block at the one
  position (0, 0) selected by two coordinate comparisons. So entry (0, 0) of what it stores is the entry it found
  there plus the sum of the block's 2048 row similarities.

  The body's value is first restated over a few named intermediate terms (`rowDots`, `simCol`, `blockTotal`,
  `partialSum`, `oneHot`): the restatement is the same term, and each intermediate is then read at an index.
-/
import proofs.«125880_j12927851560994_2_alg».proof.Proof.Gen.KernelIdeal.Skeleton
import proofs.«125880_j12927851560994_2_alg».proof.Proof.CosineSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.DiagCos

/-- The row sums of the entrywise product of two blocks, kept as a column. -/
def rowDots (a b : Vec Ideal S2048x256 .f32) : FVec Ideal S2048x1 .f32 :=
  shapeCast S2048x1 (multiReduction .add [1] S2048 (mulf a b) 0x00000000#32 reduces_S2048x256_S2048 (.inl rfl) rfl)
    shapeCasts_S2048_S2048x1

/-- Row `r` of that column is `∑ₖ a[r,k]·b[r,k]`. -/
theorem rowDots_apply (a b : Vec Ideal S2048x256 .f32) (r : Fin 2048) (u : Fin 1) :
    rowDots a b (ix2 r u) = ∑ k : Fin 256, a (ix2 r k) * b (ix2 r k) := by
  unfold rowDots
  rw [shapeCast_a_a1_apply]
  refine (Ideal.multiReduction_add_single (mulf a b) 0x00000000#32 reduces_S2048x256_S2048 (.inl rfl) rfl (ix1 r)).trans ?_
  refine Finset.sum_congr rfl fun (k : Fin 256) _ => ?_
  have e : reduces_S2048x256_S2048.lift (ix1 r) k = ix2 r k :=
    funext fun c => Fin.ext (by match c with | ⟨0, _⟩ => rfl | ⟨1, _⟩ => rfl)
  rw [e]
  rfl

/-- The column of the block's 2048 row similarities. -/
def simCol (x0 x1 : Vec Ideal S2048x256 .f32) : FVec Ideal S2048x1 .f32 :=
  divf (rowDots x0 x1)
    (mulf (maximumf (sqrt (rowDots x0 x0)) (broadcast S2048x1 (Scalar.ofBits .f32 0x322BCC77#32)))
      (maximumf (sqrt (rowDots x1 x1)) (broadcast S2048x1 (Scalar.ofBits .f32 0x322BCC77#32))))

/-- Row `r` of it is the cosine similarity of the blocks' rows `r`. -/
theorem simCol_apply (x0 x1 : Vec Ideal S2048x256 .f32) (r : Fin 2048) (u : Fin 1) :
    simCol x0 x1 (ix2 r u) = rowSim (rowOf x0 r) (rowOf x1 r) := by
  show Ideal.div (rowDots x0 x1 (ix2 r u))
    (max (Ideal.sqrt (rowDots x0 x0 (ix2 r u))) (Ideal.ofBits .f32 0x322BCC77#32)
      * max (Ideal.sqrt (rowDots x1 x1 (ix2 r u))) (Ideal.ofBits .f32 0x322BCC77#32)) = _
  rw [rowDots_apply, rowDots_apply, rowDots_apply]
  rfl

/-- The sum of the column's entries, as a one-entry vector. -/
def blockTotal (x0 x1 : Vec Ideal S2048x256 .f32) : FVec Ideal S1 .f32 :=
  multiReduction .add [1, 2] S1 (shapeCast S1x2048x1 (simCol x0 x1) shapeCasts_S2048x1_S1x2048x1) 0x00000000#32
    reduces_S1x2048x1_S1 (.inl rfl) rfl

/-- Its one entry is the sum of the block's row similarities. -/
theorem blockTotal_apply (x0 x1 : Vec Ideal S2048x256 .f32) (j : S1.Idx) : blockTotal x0 x1 j = simSum x0 x1 := by
  unfold blockTotal
  refine (Ideal.multiReduction_add_total _ 0x00000000#32 reduces_S1x2048x1_S1
    (fun b => by match b with | ⟨0, _⟩ => rfl) (.inl rfl) rfl j).trans ?_
  rw [sum_idx_1n1]
  refine Finset.sum_congr rfl fun r _ => ?_
  rw [shapeCast_ab_1ab_apply, simCol_apply]

/-- The block's total as a scalar. -/
def partialSum (x0 x1 : Vec Ideal S2048x256 .f32) : Ideal .f32 :=
  extractAt ![0, 0, 0] (shapeCast S1x1x1 (blockTotal x0 x1) shapeCasts_S1_S1x1x1) inpos_S1x1x1_p0_0_0

theorem partialSum_eq (x0 x1 : Vec Ideal S2048x256 .f32) : partialSum x0 x1 = simSum x0 x1 := by
  show blockTotal x0 x1 _ = _
  exact blockTotal_apply x0 x1 _

/-- The mask that is set at position (0, 0) of the output block only: both coordinates compared with zero. -/
def oneHot : IVec S8x128 1 :=
  andi (cmpi .eq (iota .tc S8x128 32 [0] iota_S8x128_d0_w32) (broadcast S8x128 0#32))
    (cmpi .eq (iota .tc S8x128 32 [1] iota_S8x128_d1_w32) (broadcast S8x128 0#32))

theorem oneHot_origin : oneHot (ix2 (0 : Fin 8) (0 : Fin 128)) = 1#1 := by
  show IntOp.andi (IntOp.cmpi .eq (iota .tc S8x128 32 [0] iota_S8x128_d0_w32 (ix2 (0 : Fin 8) (0 : Fin 128))) 0#32)
    (IntOp.cmpi .eq (iota .tc S8x128 32 [1] iota_S8x128_d1_w32 (ix2 (0 : Fin 8) (0 : Fin 128))) 0#32) = 1#1
  rw [iota_single_apply, iota_single_apply]
  decide

/-- The body's stored value, restated over the named intermediates: the same term. -/
theorem pay2_eq (x0 x1 : Vec Ideal S2048x256 .f32) (xo : Vec Ideal S8x128 .f32) :
    k0_pay2 (F := Ideal) x0 x1 xo
      = addf (shapeCast S8x128 xo shapeCasts_S8x128_S8x128)
          (select oneHot (broadcast S8x128 (partialSum x0 x1)) (broadcast S8x128 (Scalar.ofBits .f32 0x00000000#32))) := rfl

/-- Entry (0, 0) of what the body stores: what it found there plus the block's sum of row similarities. -/
theorem pay2_origin (x0 x1 : Vec Ideal S2048x256 .f32) (xo : Vec Ideal S8x128 .f32) :
    k0_pay2 (F := Ideal) x0 x1 xo (ix2 (0 : Fin 8) (0 : Fin 128)) = xo (ix2 (0 : Fin 8) (0 : Fin 128)) + simSum x0 x1 := by
  rw [pay2_eq]
  show shapeCast S8x128 xo shapeCasts_S8x128_S8x128 (ix2 (0 : Fin 8) (0 : Fin 128))
    + Scalar.select (oneHot (ix2 (0 : Fin 8) (0 : Fin 128))) (partialSum x0 x1) (Ideal.ofBits .f32 0x00000000#32) = _
  rw [shapeCast_self, oneHot_origin, select_one, partialSum_eq]

/-- The block the first point of each accumulation stores before adding: zero everywhere. -/
theorem pay1_apply (i : S8x128.Idx) : k0_pay1 (F := Ideal) i = Ideal.ofBits .f32 0x00000000#32 := rfl

end Cert.KernelIdeal.Payload

end
-- ==== Proof.KernelPieces.lean ====
/-
  What one run of the kernel's body leaves in its output block, for any float values.

  The body either first stores a zero block (the first point of each accumulation) or not; it then loads the two input
  blocks and the output block whole, computes one value from them (the body's stored value, `k0_pay2`) and stores it
  over the whole output block. So the block ends holding that value of the two input blocks and of
  what the output block held when read: the zero block in the first case, its previous contents in the second.
-/
import proofs.«125880_j12927851560994_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

/-- Every store and load of the body starts at offset (0, 0). -/
theorem origin : (![0, 0] : Fin 2 → Nat) = fun _ => 0 := funext fun a => by fin_cases a <;> rfl

/-- A point that continues an accumulation: the block ends at the body's value of the input blocks and the
    block's previous contents. -/
theorem out_continue (c : Dev nD) (i : grid0.Coords) (a2 : Memref sig .tc .vmem S2048x256 .f32) (h2 : a2.IsWhole)
    (a3 : Memref sig .tc .vmem S2048x256 .f32) (h3 : a3.IsWhole) (a4 : Memref sig .tc .vmem S8x128 .f32) (h4 : a4.IsWhole)
    (hc : ¬cond0_0 i) (x0 x1 : Vec F S2048x256 .f32) (xo : Vec F S8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero origin]
  simp only [View.readAt_eq_ld, h2.read_unread, h3.read_unread, h4.read_unread, View.ld_unit_zero (S := S2048x256) origin,
    View.ld_unit_zero (S := S8x128) origin]

/-- A point that starts an accumulation: the block ends at the body's value of the input blocks and the zero block
    it has just stored. -/
theorem out_start (c : Dev nD) (i : grid0.Coords) (a2 : Memref sig .tc .vmem S2048x256 .f32) (h2 : a2.IsWhole)
    (a3 : Memref sig .tc .vmem S2048x256 .f32) (h3 : a3.IsWhole) (a4 : Memref sig .tc .vmem S8x128 .f32) (h4 : a4.IsWhole)
    (hc : cond0_0 i) (x0 x1 : Vec F S2048x256 .f32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) origin, View.readCov_unit_zero (S := S8x128) _ origin]
  simp only [View.readAt_eq_ld, h2.read_unread, h3.read_unread, View.ld_unit_zero (S := S2048x256) origin]

end Cert.KernelIdeal.Pieces

end
-- ==== Proof.KernelValue.lean ====
/-
  The kernel's result, read off its frame run over the extended reals.

  The grid has four points `t = 0, 1, 2, 3`; point `t` reads block `t` (rows `2048·t … 2048·t + 2047`) of each input.
  Points 0 and 1 accumulate into output block 0 (rows 0–7 of the [16, 128] result array), points 2 and 3 into output
  block 1 (rows 8–15); each output block is written back once, after its second point. Entry (0, 0) of an output block
  starts from zero at the block's first point and gains the sum of the input block's row similarities at each point.
  After the run the program adds entries (0, 0) and (8, 0) of the result array, negates and divides by 8192: by
  `simSum_blocks` and `two_accumulators` that is the loss of CosineSpec.
-/
import proofs.«125880_j12927851560994_2_alg».proof.Proof.Gen.KernelIdeal.Frame
import proofs.«125880_j12927851560994_2_alg».proof.Proof.CosineSpec
import proofs.«125880_j12927851560994_2_alg».proof.Proof.KernelPayload
import proofs.«125880_j12927851560994_2_alg».proof.Proof.KernelPieces
import Idealize.ShloMosaic.Lib.Pipeline.Value
import Idealize.ShloMosaic.Lib.StableHlo.Run
import Idealize.ShloMosaic.Lib.Tactic

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.DiagCos

variable (m : (ℓ : Loc nD τ sig) → Buf (Elt Ideal) ℓ) (ρ : Dev nD → PrngReg)

/-! ## The input blocks -/

/-- Point `t` reads block `t` of the first input: rows `2048·t … 2048·t + 2047`, all 256 columns. -/
theorem iblk0_eq (c : Dev nD) (t : Fin cfg0.N) (b : Fin 4) (hb : b.val = t.val) :
    (iblk m c 0 t : Vec Ideal S2048x256 .f32) = blockOf (m ((c : Thread nD τ).loc main_arg0)) b := by
  have hi : win0_0.index t 0 = t.val ∧ win0_0.index t 1 = 0 := by
    rcases fin_N0 t with rfl | rfl | rfl | rfl <;> decide
  funext j
  show V m c main_arg0 (((cfg0.win 0).blk t).view.emb j) = m ((c : Thread nD τ).loc main_arg0) (ix2 (blockRow b (j 0)) (j 1))
  rw [V_main_arg0]
  refine congrArg _ (funext fun a => Fin.ext ?_)
  match a with
  | ⟨0, _⟩ => show win0_0.index t 0 * 2048 + 1 * (j 0).val = 2048 * b.val + (j 0).val; rw [hi.1]; omega
  | ⟨1, _⟩ => show win0_0.index t 1 * 256 + 1 * (j 1).val = (j 1).val; rw [hi.2]; omega

/-- Point `t` reads block `t` of the second input. -/
theorem iblk1_eq (c : Dev nD) (t : Fin cfg0.N) (b : Fin 4) (hb : b.val = t.val) :
    (iblk m c 1 t : Vec Ideal S2048x256 .f32) = blockOf (m ((c : Thread nD τ).loc main_arg1)) b := by
  have hi : win0_1.index t 0 = t.val ∧ win0_1.index t 1 = 0 := by
    rcases fin_N0 t with rfl | rfl | rfl | rfl <;> decide
  funext j
  show V m c main_arg1 (((cfg0.win 1).blk t).view.emb j) = m ((c : Thread nD τ).loc main_arg1) (ix2 (blockRow b (j 0)) (j 1))
  rw [V_main_arg1]
  refine congrArg _ (funext fun a => Fin.ext ?_)
  match a with
  | ⟨0, _⟩ => show win0_1.index t 0 * 2048 + 1 * (j 0).val = 2048 * b.val + (j 0).val; rw [hi.1]; omega
  | ⟨1, _⟩ => show win0_1.index t 1 * 256 + 1 * (j 1).val = (j 1).val; rw [hi.2]; omega

/-! ## Entry (0, 0) of the output block, point by point -/

/-- Position (0, 0) of an output block. -/
abbrev origin : S8x128.Idx := ix2 (0 : Fin 8) (0 : Fin 128)

/-- The sum of the row similarities of the blocks point `t` reads. -/
def pointSum (c : Dev nD) (t : Fin cfg0.N) : EReal := simSum (iblk m c 0 t : Vec Ideal S2048x256 .f32) (iblk m c 1 t)

/-- At the first point of an accumulation the entry is zero plus the point's sum. -/
theorem acc_start (c : Dev nD) (t : Fin cfg0.N) (h0 : t.val % 2 = 0) :
    outsAt0 m c t.val t.isLt origin = Ideal.ofBits .f32 0x00000000#32 + pointSum m c t := by
  rw [outsAt0_A m c t h0]
  refine (congrFun (Pieces.out_start (F := Ideal) c (grid0.coords t) (ms0_0 t) (hs0_0 t) (ms0_1 t) (hs0_1 t) (ms0_2 t) (hs0_2 t)
    ((hcond0_0 t).mpr h0) (iblk m c 0 t) (iblk m c 1 t)) origin).trans ?_
  exact (Payload.pay2_origin (iblk m c 0 t) (iblk m c 1 t) (k0_pay1 (F := Ideal))).trans rfl

/-- At its second point the entry gains the point's sum. -/
theorem acc_continue (c : Dev nD) (t : Fin cfg0.N) (h0 : ¬t.val % 2 = 0) :
    outsAt0 m c t.val t.isLt origin
      = outsAt0 m c (t.val - 1) (Nat.lt_of_le_of_lt (Nat.sub_le _ _) t.isLt) origin + pointSum m c t := by
  rw [outsAt0_B m c t h0]
  refine (congrFun (Pieces.out_continue (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) origin).trans ?_
  exact Payload.pay2_origin (iblk m c 0 t) (iblk m c 1 t) _

/-- After the second point `t` of an accumulation (the point before it, `t'`, being its first) the entry is zero
    plus the two points' sums, in that order. -/
theorem acc_pair (c : Dev nD) (t t' : Fin cfg0.N) (h1 : t.val % 2 = 1) (ht' : t'.val = t.val - 1) :
    outsAt0 m c t.val t.isLt origin = (Ideal.ofBits .f32 0x00000000#32 + pointSum m c t') + pointSum m c t := by
  rw [acc_continue m c t (by omega)]
  obtain ⟨n', hn'⟩ := t'
  dsimp only at ht'
  subst ht'
  rw [acc_start m c ⟨t.val - 1, hn'⟩ (by dsimp only; omega)]

/-! ## The result array after the run -/

/-- The result array as the two write-backs leave it: rows 0–7 hold output block 0 as point 1 left it, rows 8–15
    output block 1 as point 3 left it. -/
def accArray (c : Dev nD) : Buf (Elt Ideal) ((c : Thread nD τ).loc main_v0) := fun (i : S16x128.Idx) =>
  if h : (i 0).val < 8 then outsAt0 m c t0_1.val t0_1.isLt (ix2 (⟨(i 0).val, h⟩ : Fin 8) (⟨(i 1).val, (i 1).isLt⟩ : Fin 128))
  else outsAt0 m c t0_3.val t0_3.isLt
    (ix2 (⟨(i 0).val - 8, by have h16 : (i 0).val < 16 := (i 0).isLt; omega⟩ : Fin 8) (⟨(i 1).val, (i 1).isLt⟩ : Fin 128))

/-- Where output block `t / 2` sits in the result array: rows `8·(t / 2) …`, all 128 columns. -/
theorem out_index : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)

/-- What a write-back writes is its block of `accArray`. -/
theorem flushed_eq (c : Dev nD) (t : Fin cfg0.N) (hf : (cfg0.win 2).flush t = true) :
    (dats m 0 c).flushed 2 t = ((cfg0.win 2).blk t).view.read (Elt Ideal) (accArray m c) := by
  have h1 : t.val % 2 = 1 := (flush0_2 t).mp hf
  show (cfg0.win 2).cut (grid0.coords t) ((dats m 0 c).after 2 t) = _
  rw [after0_2]
  funext y
  show outsAt0 m c t.val t.isLt y = accArray m c (((cfg0.win 2).blk t).view.emb y)
  have hy0 : (y 0).val < 8 := (y 0).isLt
  have hy1 : (y 1).val < 128 := (y 1).isLt
  obtain ⟨i0, i1⟩ := out_index t
  have e0 : ((((cfg0.win 2).blk t).view.emb y) 0).val = t.val / 2 * 8 + (y 0).val := by
    show win0_2.index t (0 : Fin 2) * 8 + 1 * (y 0).val = _
    rw [i0]; omega
  have e1 : ((((cfg0.win 2).blk t).view.emb y) 1).val = (y 1).val := by
    show win0_2.index t (1 : Fin 2) * 128 + 1 * (y 1).val = _
    rw [i1]; omega
  unfold accArray
  rcases fin_N0 t with rfl | rfl | rfl | rfl
  · exact absurd h1 (by decide)
  · have e0' : ((((cfg0.win 2).blk t0_1).view.emb y) 0).val = (y 0).val := by rw [e0]; show 1 / 2 * 8 + (y 0).val = _; omega
    rw [dif_pos (show ((((cfg0.win 2).blk t0_1).view.emb y) 0).val < 8 by rw [e0']; exact hy0)]
    refine congrArg (outsAt0 m c t0_1.val t0_1.isLt) (funext fun a => Fin.ext ?_)
    match a with
    | ⟨0, _⟩ => exact e0'.symm
    | ⟨1, _⟩ => exact e1.symm
  · exact absurd h1 (by decide)
  · have e0' : ((((cfg0.win 2).blk t0_3).view.emb y) 0).val = 8 + (y 0).val := by rw [e0]; show 3 / 2 * 8 + (y 0).val = _; omega
    rw [dif_neg (show ¬((((cfg0.win 2).blk t0_3).view.emb y) 0).val < 8 by rw [e0']; omega)]
    refine congrArg (outsAt0 m c t0_3.val t0_3.isLt) (funext fun a => Fin.ext ?_)
    match a with
    | ⟨0, _⟩ => show (y 0).val = ((((cfg0.win 2).blk t0_3).view.emb y) 0).val - 8; rw [e0']; omega
    | ⟨1, _⟩ => exact e1.symm

/-- An index of the result array is in point `t`'s output block iff each coordinate is in the block's range. -/
theorem mem_out_block (t : Fin cfg0.N) (i : S16x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v0).slice (win0_2.rect t)).set ↔ _
  rw [View.set_slice_whole, Rect.mem_set_unit]
  exact Iff.rfl

/-- Entry (0, 0) of the result array after the run: entry (0, 0) of output block 0 after point 1. -/
theorem entry_first (c : Dev nD) :
    (dats m 0 c).arrAt 2 cfg0.N (ix2 (0 : Fin 16) (0 : Fin 128)) = outsAt0 m c t0_1.val t0_1.isLt origin := by
  rw [(dats m 0 c).arrAt_eq_piecewise 2 (accArray m c) (fun t hf => flushed_eq m c t hf) _]
  rw [if_pos ⟨t0_1, (flush0_2 t0_1).mpr (by decide), by
    rw [mem_out_block]
    intro a
    obtain ⟨i0, i1⟩ := out_index t0_1
    match a with
    | ⟨0, _⟩ => show win0_2.index t0_1 (0 : Fin 2) * 8 ≤ 0 ∧ 0 < win0_2.index t0_1 (0 : Fin 2) * 8 + 8; rw [i0]; show 1 / 2 * 8 ≤ 0 ∧ 0 < 1 / 2 * 8 + 8; omega
    | ⟨1, _⟩ => show win0_2.index t0_1 (1 : Fin 2) * 128 ≤ 0 ∧ 0 < win0_2.index t0_1 (1 : Fin 2) * 128 + 128; rw [i1]; omega⟩]
  unfold accArray
  rw [dif_pos (show ((ix2 (0 : Fin 16) (0 : Fin 128) : S16x128.Idx) 0).val < 8 by decide)]
  rfl

/-- Entry (8, 0) of the result array after the run: entry (0, 0) of output block 1 after point 3. -/
theorem entry_second (c : Dev nD) :
    (dats m 0 c).arrAt 2 cfg0.N (ix2 (8 : Fin 16) (0 : Fin 128)) = outsAt0 m c t0_3.val t0_3.isLt origin := by
  rw [(dats m 0 c).arrAt_eq_piecewise 2 (accArray m c) (fun t hf => flushed_eq m c t hf) _]
  rw [if_pos ⟨t0_3, (flush0_2 t0_3).mpr (by decide), by
    rw [mem_out_block]
    intro a
    obtain ⟨i0, i1⟩ := out_index t0_3
    match a with
    | ⟨0, _⟩ => show win0_2.index t0_3 (0 : Fin 2) * 8 ≤ 8 ∧ 8 < win0_2.index t0_3 (0 : Fin 2) * 8 + 8; rw [i0]; show 3 / 2 * 8 ≤ 8 ∧ 8 < 3 / 2 * 8 + 8; omega
    | ⟨1, _⟩ => show win0_2.index t0_3 (1 : Fin 2) * 128 ≤ 0 ∧ 0 < win0_2.index t0_3 (1 : Fin 2) * 128 + 128; rw [i1]; omega⟩]
  unfold accArray
  rw [dif_neg (show ¬((ix2 (8 : Fin 16) (0 : Fin 128) : S16x128.Idx) 0).val < 8 by decide)]
  rfl

/-! ## The operations after the region -/

/-- A one-entry slice of an array, viewed as a scalar, is the array's entry at the slice's offsets. -/
theorem scalar_of_entry (x : S16x128.Idx → EReal) (off : Fin 2 → Nat) (h : S16x128.Slices off S1x1)
    (h' : S1x1.ShapeCasts S_) (p : Fin 16) (q : Fin 128) (hp : off 0 = p.val) (hq : off 1 = q.val) (i : S_.Idx) :
    shapeCast S_ (extractStridedSlice S1x1 off x h) h' i = x (ix2 p q) := by
  unfold shapeCast
  generalize Shape.reshapeEquiv h' i = j
  refine extractStridedSlice_apply off x h j (ix2 p q) fun a => ?_
  have h0 : (j 0).val < 1 := (j 0).isLt
  have h1 : (j 1).val < 1 := (j 1).isLt
  match a with
  | ⟨0, _⟩ => show p.val = off 0 + (j 0).val; omega
  | ⟨1, _⟩ => show q.val = off 1 + (j 1).val; omega

/-- The region leaves the result array at what the write-backs made of it. -/
theorem result_array (c : Dev nD) :
    Pipeline.withArrays (cfgs 0).spec c (V0 m c) (fun w => (dats m 0 c).arrAt w (cfgs 0).N) (Proc.devRef .tc main_v0)
      = (dats m 0 c).arrAt 2 cfg0.N :=
  Pipeline.withArrays_arr spec0 launch0.win.arr_inj c _ _ 2

/-- The program's result: the two accumulated entries added, negated, divided by 8192 — the loss. -/
theorem tail_eq (c : Dev nD) :
    Pipeline.afterTail₀ cfgs (dats m) 0 (V0 m) [hostOps1] c main_v7
      = fun _ => loss (m ((c : Thread nD τ).loc main_arg0)) (m ((c : Thread nD τ).loc main_arg1)) := by
  unfold Pipeline.afterTail₀
  show StableHlo.after hostOps1 _ (Proc.devRef .tc main_v7) = _
  after_results
  rw [result_array m c]
  funext i
  show Ideal.div (-(shapeCast (α := EReal) S_ (extractStridedSlice (s := S16x128) (α := EReal) S1x1 ![0, 0] ((dats m 0 c).arrAt 2 cfg0.N) slices_S16x128_S1x1_0_0) shapeCasts_S1x1_S_ i
      + shapeCast (α := EReal) S_ (extractStridedSlice (s := S16x128) (α := EReal) S1x1 ![8, 0] ((dats m 0 c).arrAt 2 cfg0.N) slices_S16x128_S1x1_8_0) shapeCasts_S1x1_S_ i))
    (Ideal.ofBits .f32 0x46000000#32) = _
  rw [scalar_of_entry _ ![0, 0] _ _ (0 : Fin 16) (0 : Fin 128) rfl rfl i,
    scalar_of_entry _ ![8, 0] _ _ (8 : Fin 16) (0 : Fin 128) rfl rfl i,
    entry_first, entry_second,
    acc_pair m c t0_1 t0_0 (by decide) (by decide), acc_pair m c t0_3 t0_2 (by decide) (by decide),
    two_accumulators]
  unfold pointSum loss
  rw [iblk0_eq m c t0_0 0 (by decide), iblk1_eq m c t0_0 0 (by decide), iblk0_eq m c t0_1 1 (by decide), iblk1_eq m c t0_1 1 (by decide),
    iblk0_eq m c t0_2 2 (by decide), iblk1_eq m c t0_2 2 (by decide), iblk0_eq m c t0_3 3 (by decide), iblk1_eq m c t0_3 3 (by decide),
    ← simSum_blocks]
  rfl

/-! ## The run, read -/

/-- Every weakly fair execution of the program terminates with its result at the loss of its two arguments, the
    arguments unchanged. -/
theorem run : θ_run defs (onTc (τ := τ) (main (F := Ideal))) ⟨m, fun _ => 0, ρ⟩ fun r => ∀ c : Dev nD,
      r.2.mem ((c : Thread nD τ).loc main_v7) = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v7 (Pipeline.mem_restRefs_of main_v7 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.lean ====
/-
  Two programs compute the mean negated cosine similarity of corresponding rows of two [8192, 256] arrays.

  The reference builds the full [8192, 8192] matrix of pairwise cosine similarities, masks it with the identity
  matrix, and sums. The kernel never forms the off-diagonal entries: it walks the rows in four blocks of 2048, sums each
  block's row similarities, accumulates two block sums into each of two output blocks, and adds the two accumulators.

  Over the extended reals the two agree for EVERY input: a masked off-diagonal entry is a product with 0, which is 0
  whatever the other factor, and a diagonal entry is a product with 1; what remains on both sides is the sum of the
  8192 row similarities, grouped differently, and addition of extended reals is commutative and associative
  (Proof/CosineSpec.lean states the function; Proof/RefValue.lean and Proof/KernelValue.lean show each program computes
  it). The precondition is not used for the values. The kernel's idealization rewrote nothing.
-/
import proofs.«125880_j12927851560994_2_alg».proof.Defs
import proofs.«125880_j12927851560994_2_alg».proof.Proof.Gen.Kernel
import proofs.«125880_j12927851560994_2_alg».proof.Proof.Gen.Kernel.Skeleton
import proofs.«125880_j12927851560994_2_alg».proof.Proof.Gen.Kernel.Launch
import proofs.«125880_j12927851560994_2_alg».proof.Proof.Gen.Kernel.Points
import proofs.«125880_j12927851560994_2_alg».proof.Proof.Gen.Kernel.Frame
import proofs.«125880_j12927851560994_2_alg».proof.Proof.Gen.KernelIdeal
import proofs.«125880_j12927851560994_2_alg».proof.Proof.Gen.KernelIdeal.Skeleton
import proofs.«125880_j12927851560994_2_alg».proof.Proof.Gen.KernelIdeal.Launch
import proofs.«125880_j12927851560994_2_alg».proof.Proof.Gen.KernelIdeal.Points
import proofs.«125880_j12927851560994_2_alg».proof.Proof.Gen.KernelIdeal.Frame
import proofs.«125880_j12927851560994_2_alg».proof.Proof.Gen.ReferenceIdeal
import proofs.«125880_j12927851560994_2_alg».proof.Proof.Gen.ReferenceIdeal.Run
import proofs.«125880_j12927851560994_2_alg».proof.Proof.Gen.ReferenceIdeal.Read
import proofs.«125880_j12927851560994_2_alg».proof.Proof.Gen.Pre_finite_inputs
import proofs.«125880_j12927851560994_2_alg».proof.Proof.RefValue
import proofs.«125880_j12927851560994_2_alg».proof.Proof.KernelValue
import Idealize.ShloMosaic.Adequacy
import Idealize.ShloMosaic.Init

noncomputable section

namespace Cert.Proof

open Idealize.ShloMosaic Idealize.SL.Sem

/-- The kernel as printed runs to the end with its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the loss of those arguments as their
    result. -/
theorem algebraic : Cert.algebraic_KernelIdeal_ReferenceIdeal := by
  intro m ρ m' ρ' _ hagree
  refine ⟨fun c _ => Cert.DiagCos.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
